-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S4x4096x2048 .f32) (main_arg1 : FVec F S64x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S16384x64 : Shape := ⟨2, ![16384, 64]⟩
abbrev S4x4096x64 : Shape := ⟨3, ![4, 4096, 64]⟩
abbrev S1024x2048 : Shape := ⟨2, ![1024, 2048]⟩
abbrev S2048x64 : Shape := ⟨2, ![2048, 64]⟩
abbrev S1024x64 : Shape := ⟨2, ![1024, 64]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S16384x64, .f32⟩
  | .hbm, ⟨4, _⟩ => ⟨S4x4096x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S2048x64, .f32⟩
  | .local _ .vmem, ⟨6, _⟩ => ⟨S2048x64, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x2048_S16384x2048 : S4x4096x2048.ShapeCasts S16384x2048
  shapeCasts_S16384x64_S4x4096x64 : S16384x64.ShapeCasts S4x4096x64
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S64x2048_S64x2048_0_0 : ∀ a, (![0, 0] : Fin 2 → Nat) a + S64x2048.size a ≤ S64x2048.size a
  h_S64x2048 : 0 < S64x2048.numel
  inb_S2048x64_S1024x64_0_0 : ∀ a, (![0, 0] : Fin 2 → Nat) a + S1024x64.size a ≤ S2048x64.size a
  h_S1024x64 : 0 < S1024x64.numel
  inb_S2048x64_S1024x64_1024_0 : ∀ a, (![1024, 0] : Fin 2 → Nat) a + S1024x64.size a ≤ S2048x64.size a
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_call0_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S4x4096x64 : Shape := ⟨3, ![4, 4096, 64]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S4x4096x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x4096x2048_S64x2048_S4x4096x64_2_1_01_0_n_n_wf : DotDims.WF S4x4096x2048 S64x2048 S4x4096x64 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf

class Facts : Prop extends Facts₀ where

variable [Facts]
-- ==== Proof.RouterBody.lean ====
/-
  The body of the row-block product kernel, and the data of its pipeline.

  At grid point t the kernel is handed two 1024-row blocks of the [16384, 2048] operand — blocks 2t and 2t+1,
  through two windows over the SAME array — and the whole [64, 2048] weight; it stores the product of the first
  block with the transposed weight into rows 0..1023 of its [2048, 64] output block and that of the second into
  rows 1024..2047. The two stores tile the output block, so what the body leaves there is a function of the three
  input blocks alone (the body also loads each half of the output block before storing it; the loaded values are
  not used). This module states that function (`outBlk`), proves the body's triple, names the pipeline's data —
  the array the two row windows share is held at half the full share by each — and proves the body obligation.
-/
import proofs.«137380_g64372969832743_cont_9to1_m_644_7_alg».proof.Proof.Gen.KernelIdeal.Launch
import proofs.«137380_g64372969832743_cont_9to1_m_644_7_alg».proof.Proof.Gen.KernelIdeal.Skeleton
import proofs.«137380_g64372969832743_cont_9to1_m_644_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first row window's buffer holds block 2t of the operand at every point. -/
theorem before_rowsA {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second row window's buffer holds block 2t+1 of the operand at every point. -/
theorem before_rowsB {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds the whole weight at every point, though it is fetched at the first only: its
    block index never moves. -/
theorem before_weight {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A whole row block. -/
abbrev rRows : Rect S1024x2048 := Rect.unit (s := S1024x2048) ![0, 0] S1024x2048.size inb_S1024x2048_S1024x2048_0_0
/-- The whole weight. -/
abbrev rWeight : Rect S64x2048 := Rect.unit (s := S64x2048) ![0, 0] S64x2048.size inb_S64x2048_S64x2048_0_0
/-- Rows 0..1023 of the output block. -/
abbrev rTop : Rect S2048x64 := Rect.unit (s := S2048x64) ![0, 0] S1024x64.size inb_S2048x64_S1024x64_0_0
/-- Rows 1024..2047 of the output block. -/
abbrev rBot : Rect S2048x64 := Rect.unit (s := S2048x64) ![1024, 0] S1024x64.size inb_S2048x64_S1024x64_1024_0

/-! ## What the body leaves in the output block -/

/-- The output block after the body, from the three input blocks: the second product laid over rows 1024..2047,
    the first over rows 0..1023 (the later store first). -/
def outBlk (xa xb : Vec F S1024x2048 .f32) (w : Vec F S64x2048 .f32) : Vec F S2048x64 .f32 :=
  View.canon [⟨rBot, k0_pay2 (View.ld xb rRows) (View.ld w rWeight)⟩, ⟨rTop, k0_pay1 (View.ld xa rRows) (View.ld w rWeight)⟩]

/-- The two half blocks tile the output block. -/
theorem cover_out (p1 : rBot.shape.Idx → Elt F .f32) (p0 : rTop.shape.Idx → Elt F .f32) (y : S2048x64.Idx) :
    ∃ pc ∈ ([⟨rBot, p1⟩, ⟨rTop, p0⟩] : List (View.Piece (Elt F) S2048x64 .f32)), y ∈ pc.1.set :=
  View.cover_of_tiled [⟨rBot, p1⟩, ⟨rTop, p0⟩] S1024x64.size (by rfl) y

/-! ## The body's triple -/

set_option maxHeartbeats 1000000 in
/-- The body on whole staging memrefs — the inputs' at read contents, the output's at anything — runs to the
    inputs' as they were and the output's at `outBlk` of the inputs'. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S64x2048 .f32) (harg3 : arg3.IsWhole) (arg4 : Memref sig .tc .vmem S2048x64 .f32) (harg4 : arg4.IsWhole)
    (xa xb : Vec F S1024x2048 .f32) (w : Vec F S64x2048 .f32) (K : PUnit → sProp 𝕄) :
    iprop(owns (c : Thread nD τ) arg1 fullShare xa ∗ owns (c : Thread nD τ) arg2 fullShare xb ∗ owns (c : Thread nD τ) arg3 fullShare w
        ∗ (∃ d, owns (c : Thread nD τ) arg4 fullShare d)
        ∗ (iprop(owns (c : Thread nD τ) arg1 fullShare xa ∗ owns (c : Thread nD τ) arg2 fullShare xb ∗ owns (c : Thread nD τ) arg3 fullShare w
            ∗ owns (c : Thread nD τ) arg4 fullShare (outBlk xa xb w)) -∗ K ⟨⟩))
      ⊢ wp frame (wpE (defs₀ (F := F)) Variants.none c none) E (cc0__router_block i arg1 harg1 arg2 harg2 arg3 harg3 arg4 harg4) K := by
  simp only [cc0__router_block_eq_skeleton]; unfold cc0__router_block_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

/-! ## The pipeline's data -/

/-- The data of the pipeline on core `c`: the arrays as the region finds them; after the body each input's buffer
    at its block and the output's at `outBlk` of the input blocks; the invariant the scoped rest and the generator
    register, untouched; nothing owed. The operand array is read through two windows: each holds half of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_rowsA (c : Dev nD) (t : Fin cfg0.N) : (dat V c).after 0 t = iblk V c 0 t := by dsimp only [dat]
theorem after_rowsB (c : Dev nD) (t : Fin cfg0.N) : (dat V c).after 1 t = iblk V c 1 t := by dsimp only [dat]
theorem after_weight (c : Dev nD) (t : Fin cfg0.N) : (dat V c).after 2 t = iblk V c 2 t := by dsimp only [dat]
theorem after_out (c : Dev nD) (t : Fin cfg0.N) :
    (dat V c).after 3 t = outBlk (iblk V c 0 t) (iblk V c 1 t) (iblk V c 2 t) := by dsimp only [dat]

theorem before0 (c : Dev nD) (t : Fin cfg0.N) (d) : (dat V c).before 0 t d = iblk V c 0 t :=
  before_rowsA V (dat V c) (A_eq V c 0) (after_rowsA V c) t d
theorem before1 (c : Dev nD) (t : Fin cfg0.N) (d) : (dat V c).before 1 t d = iblk V c 1 t :=
  before_rowsB V (dat V c) (A_eq V c 1) (after_rowsB V c) t d
theorem before2 (c : Dev nD) (t : Fin cfg0.N) (d) : (dat V c).before 2 t d = iblk V c 2 t :=
  before_weight V (dat V c) (A_eq V c 2) (after_weight V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after_rowsA, after_rowsB, after_weight, after_out]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Router

end
-- ==== Proof.RouterRun.lean ====
/-
  The run of the row-block product program: a reshape of the [4, 4096, 2048] operand to [16384, 2048] on the host,
  the pipelined kernel, and a reshape of its [16384, 64] result to [4, 4096, 64] on the host.

  The kernel reads the reshaped operand through TWO windows (its even and its odd 1024-row blocks), so the
  buffer's full share is dealt between them at the region's entry, half to each, and the halves — which hold the
  same contents still, for an input array is never written — are joined again at its exit. Every other array has
  one window and is held outright. The run ends with every buffer outside the kernel's staging at the contents the
  three segments leave, folded from the launch memory (`Wend`).
-/
import proofs.«137380_g64372969832743_cont_9to1_m_644_7_alg».proof.Proof.RouterBody

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of the pipeline, one by one -/

section Arrays

variable (V : (c : Dev nD) → (b : Ref sig .tc) → Buf (Elt F) ((c : Thread nD τ).loc b))

/-- The three distinct buffers behind the four windows' arrays. -/
theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_call0_v0) ↦{fullShare} X main_call0_v0)
          ∗ (((c : Thread nD τ).loc main_arg1) ↦{fullShare} X main_arg1)
          ∗ (((c : Thread nD τ).loc main_call0_v1) ↦{fullShare} X main_call0_v1)) := by
  unfold Pipeline.arrBufs
  exact bigSep_eq_bigSepL_of_eq [main_call0_v0, main_arg1, main_call0_v1] (by decide) (by decide) _

/-- The pipeline's arrays window by window: the operand's buffer twice, at the two halves of the full share. -/
theorem arrays_chain (c : Dev nD) (A : (w : Fin cfg0.W) → Buf (Elt F) ((cfg0.win w).arr.view.loc (c : Thread nD τ))) :
    ((dat V c).arrays A : sProp 𝕄)
      = iprop((((c : Thread nD τ).loc main_call0_v0) ↦{fullShare.left} A 0)
          ∗ (((c : Thread nD τ).loc main_call0_v0) ↦{fullShare.right} A 1)
          ∗ (((c : Thread nD τ).loc main_arg1) ↦{fullShare} A 2)
          ∗ (((c : Thread nD τ).loc main_call0_v1) ↦{fullShare} A 3)) := by
  unfold Dat.arrays
  rw [bigSep_W0, (arr_whole0 0).set_eq_univ, (arr_whole0 2).set_eq_univ, (arr_whole0 3).set_eq_univ]
  rfl

/-- ENTRY: the core's unscoped buffers are the pipeline's arrays at the entry contents — the operand's buffer split
    in two halves — and the unscoped rest. -/
theorem entry_split (c : Dev nD) :
    (unscopedBufs (Ix := Unit) (Name := ℕ) (U := UR sig nD τ) (Lvl := ℕ) c (V c) : sProp 𝕄)
      ⊢ iprop((dat V c).arrays ((dat V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrBufs_chain, arrays_chain]
  iintro ⟨⟨Hx, Hw, Ho⟩, Hrest⟩
  ihave Hx' := (pointsTo_share (PosShare.mem_left_op_right fullShare)).1 $$ Hx
  icases Hx' with ⟨Hl, Hr⟩
  isplitr [Hrest]
  · isplitl [Hl]; · iexact Hl
    isplitl [Hr]; · iexact Hr
    isplitl [Hw]; · iexact Hw
    iexact Ho
  · iexact Hrest

/-- An input array ends as it was entered. -/
theorem arrAt_rowsA (c : Dev nD) : (dat V c).arrAt 0 cfg0.N = V c main_call0_v0 := ((dat V c).arrAt_in 0 rfl _).trans (A_eq V c 0)
theorem arrAt_rowsB (c : Dev nD) : (dat V c).arrAt 1 cfg0.N = V c main_call0_v0 := ((dat V c).arrAt_in 1 rfl _).trans (A_eq V c 1)
theorem arrAt_weight (c : Dev nD) : (dat V c).arrAt 2 cfg0.N = V c main_arg1 := ((dat V c).arrAt_in 2 rfl _).trans (A_eq V c 2)

/-- EXIT: the pipeline's arrays at what its write-backs leave — the operand's two halves, at the same contents
    still, joined — and the unscoped rest are the core's unscoped buffers at any contents `X` that have the result
    array at what the pipeline leaves and agree with the entry contents elsewhere. -/
theorem exit_join (c : Dev nD) (X : (b : Ref sig .tc) → Buf (Elt F) ((c : Thread nD τ).loc b))
    (hout : X main_call0_v1 = (dat V c).arrAt 3 cfg0.N) (hrest : ∀ b, b ≠ main_call0_v1 → X b = V c b) :
    iprop((dat V c).arrays ((dat V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c X : sProp 𝕄) := by
  have hR : (Pipeline.unscopedRest (Ix := Unit) (Name := ℕ) (U := UR sig nD τ) (Lvl := ℕ) spec0 c X : sProp 𝕄)
      = Pipeline.unscopedRest spec0 c (V c) := by
    unfold Pipeline.unscopedRest
    exact bigSep_congr fun b hb => by
      rw [hrest b (fun e => (Finset.mem_sdiff.mp hb).2 (Finset.mem_image.mpr ⟨3, Finset.mem_univ _, e.symm⟩))]
  rw [Pipeline.unscopedBufs_split₀ cfgs 0 winFacts₀0.arr_unscoped c X, arrBufs_chain, arrays_chain, hR,
    arrAt_rowsA, arrAt_rowsB, arrAt_weight, hout, hrest main_call0_v0 (by decide), hrest main_arg1 (by decide)]
  iintro ⟨⟨Hl, Hr, Hw, Ho⟩, Hrest⟩
  isplitr [Hrest]
  · isplitl [Hl Hr]
    · iapply (pointsTo_share (PosShare.mem_left_op_right fullShare)).2
      isplitl [Hl]; · iexact Hl
      iexact Hr
    isplitl [Hw]; · iexact Hw
    iexact Ho
  · iexact Hrest

end Arrays

/-! ## The buffer contents at each segment boundary: a fold through the program -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- After the operand's reshape (the region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the region's exit: the result array at what the write-backs leave, every other buffer as entered. -/
def W2 (c : Dev nD) : Valuation τ sig (Elt F) :=
  Function.update (W1 m c) main_call0_v1 ((dat (V1 m) c).arrAt 3 cfg0.N)
/-- The same read at the TensorCore's references. -/
abbrev V2 : (c : Dev nD) → (b : Ref sig .tc) → Buf (Elt F) ((c : Thread nD τ).loc b) := fun c b => W2 m c b
/-- After the result's reshape (the end). -/
abbrev Wend : Dev nD → Valuation τ sig (Elt F) := fun c => StableHlo.after hostOps1 (W2 m c)

theorem W2_out (c : Dev nD) : V2 m c main_call0_v1 = (dat (V1 m) c).arrAt 3 cfg0.N := by
  simp only [V2, W2, Function.update_self]
theorem W2_of_ne (c : Dev nD) (b : Ref sig .tc) (h : b ≠ main_call0_v1) : V2 m c b = V1 m c b := by
  simp only [V2, W2, Function.update_of_ne (StableHlo.devRef_ne_of_ne h : (Proc.devRef .tc b : DevRef τ sig) ≠ Proc.devRef .tc main_call0_v1)]

/-! ## The pipeline's data and the thread state -/

/-- No pipeline has a prefetched table. -/
abbrev adm : (p : Fin 1) → (pcfgs (F := F) p).Adm := fun p => (cfgs p).toPCfg_adm
/-- The one pipeline's data, at its region's entry contents. -/
def pdats : (p : Fin 1) → (c : Dev nD) → Dat τ (Elt F) Unit ℕ (UR sig nD τ) ℕ (Pipeline.pin (pcfgs (F := F)) adm p) c
  | ⟨0, _⟩ => fun c => dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tend (c : Dev nD) : sProp 𝕄 := iprop(StableHlo.held (c : Thread nD τ) (Pipeline.ucRefs τ sig) (Wend m c) ∗ ∃ r, prngReg c r)

/-! ## The region as a segment -/

set_option backward.isDefEq.respectTransparency.types false in
/-- The kernel's region over the thread state: entered from every unscoped buffer at `W1`, left at `W2`. Its
    arrays are split out of the unscoped buffers (`entry_split`: the shared operand in two halves) and put back
    at the exit contents (`exit_join`); the generator register goes into the region invariant and comes out;
    nothing is owed; the kernel has no semaphore of its own. -/
def reg : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0)
            ∗ Pipeline.unscopedRest (Ix := Unit) (Name := ℕ) (U := UR sig nD τ) (Lvl := ℕ) spec0 c (V1 m c)) := entry_split (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs (Ix := Unit) (Name := ℕ) (U := UR sig nD τ) (Lvl := ℕ) c (V2 m c) : sProp 𝕄) :=
      exit_join (V1 m) c (V2 m c) (W2_out m c) (fun b hb => W2_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m) () defs₀ 𝒱₀ L lv) :=
  [ .host (hseg hostOps0 hostOps0_sub hostOps0_fresh (W0 m)),
    .region (reg m),
    .host (hseg hostOps1 hostOps1_sub hostOps1_fresh (W2 m)) ]
/-- The program IS the run of the segments. -/
theorem main_run (c : Dev nD) : main (F := F) c = Pipeline.Seg.run (segs m) := (main_chain c).trans (by chain_rfl)

set_option backward.isDefEq.respectTransparency.types false in
/-- THE RUN, at any float values: from any memory with zero counters every weakly fair execution of the program
    terminates, nothing faulting, and every final state has each unscoped buffer at the contents the three segments
    leave (`Wend`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun c =>
      (show iprop(StableHlo.held (c : Thread nD τ) (Pipeline.ucRefs τ sig) (Wend m c) ∗ R c)
          ⊢ (iprop(Tend m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c => h c)

/-! ## The arguments end as launched

Neither reshape writes an argument and the kernel's write-backs go to the result array alone, so the fold at an
argument's buffer walks back to the launch memory. -/

theorem Wend_arg0 (c : Dev nD) : Wend m c (Proc.devRef .tc main_arg0) = m ((c : Thread nD τ).loc main_arg0) :=
  calc Wend m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem Wend_arg1 (c : Dev nD) : Wend m c (Proc.devRef .tc main_arg1) = m ((c : Thread nD τ).loc main_arg1) :=
  calc Wend m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

/-- THE FRAME, at any float values: the program runs to the end, nothing faulting, and its argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (Wend_arg0 m c),
       (h c _ (mem_uc main_arg1 (by decide))).trans (Wend_arg1 m c)⟩)
    (run_main m ρ)

end Cert.KernelIdeal.Router

end
-- ==== Proof.RouterBodyBits.lean ====
/-
  The body of the row-block product kernel, and the data of its pipeline.

  At grid point t the kernel is handed two 1024-row blocks of the [16384, 2048] operand — blocks 2t and 2t+1,
  through two windows over the SAME array — and the whole [64, 2048] weight; it stores the product of the first
  block with the transposed weight into rows 0..1023 of its [2048, 64] output block and that of the second into
  rows 1024..2047. The two stores tile the output block, so what the body leaves there is a function of the three
  input blocks alone (the body also loads each half of the output block before storing it; the loaded values are
  not used). This module states that function (`outBlk`), proves the body's triple, names the pipeline's data —
  the array the two row windows share is held at half the full share by each — and proves the body obligation.
-/
import proofs.«137380_g64372969832743_cont_9to1_m_644_7_alg».proof.Proof.Gen.Kernel.Launch
import proofs.«137380_g64372969832743_cont_9to1_m_644_7_alg».proof.Proof.Gen.Kernel.Skeleton
import proofs.«137380_g64372969832743_cont_9to1_m_644_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first row window's buffer holds block 2t of the operand at every point. -/
theorem before_rowsA {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second row window's buffer holds block 2t+1 of the operand at every point. -/
theorem before_rowsB {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds the whole weight at every point, though it is fetched at the first only: its
    block index never moves. -/
theorem before_weight {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A whole row block. -/
abbrev rRows : Rect S1024x2048 := Rect.unit (s := S1024x2048) ![0, 0] S1024x2048.size inb_S1024x2048_S1024x2048_0_0
/-- The whole weight. -/
abbrev rWeight : Rect S64x2048 := Rect.unit (s := S64x2048) ![0, 0] S64x2048.size inb_S64x2048_S64x2048_0_0
/-- Rows 0..1023 of the output block. -/
abbrev rTop : Rect S2048x64 := Rect.unit (s := S2048x64) ![0, 0] S1024x64.size inb_S2048x64_S1024x64_0_0
/-- Rows 1024..2047 of the output block. -/
abbrev rBot : Rect S2048x64 := Rect.unit (s := S2048x64) ![1024, 0] S1024x64.size inb_S2048x64_S1024x64_1024_0

/-! ## What the body leaves in the output block -/

/-- The output block after the body, from the three input blocks: the second product laid over rows 1024..2047,
    the first over rows 0..1023 (the later store first). -/
def outBlk (xa xb : Vec F S1024x2048 .f32) (w : Vec F S64x2048 .f32) : Vec F S2048x64 .f32 :=
  View.canon [⟨rBot, k0_pay2 (View.ld xb rRows) (View.ld w rWeight)⟩, ⟨rTop, k0_pay1 (View.ld xa rRows) (View.ld w rWeight)⟩]

/-- The two half blocks tile the output block. -/
theorem cover_out (p1 : rBot.shape.Idx → Elt F .f32) (p0 : rTop.shape.Idx → Elt F .f32) (y : S2048x64.Idx) :
    ∃ pc ∈ ([⟨rBot, p1⟩, ⟨rTop, p0⟩] : List (View.Piece (Elt F) S2048x64 .f32)), y ∈ pc.1.set :=
  View.cover_of_tiled [⟨rBot, p1⟩, ⟨rTop, p0⟩] S1024x64.size (by rfl) y

/-! ## The body's triple -/

set_option maxHeartbeats 1000000 in
/-- The body on whole staging memrefs — the inputs' at read contents, the output's at anything — runs to the
    inputs' as they were and the output's at `outBlk` of the inputs'. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S64x2048 .f32) (harg3 : arg3.IsWhole) (arg4 : Memref sig .tc .vmem S2048x64 .f32) (harg4 : arg4.IsWhole)
    (xa xb : Vec F S1024x2048 .f32) (w : Vec F S64x2048 .f32) (K : PUnit → sProp 𝕄) :
    iprop(owns (c : Thread nD τ) arg1 fullShare xa ∗ owns (c : Thread nD τ) arg2 fullShare xb ∗ owns (c : Thread nD τ) arg3 fullShare w
        ∗ (∃ d, owns (c : Thread nD τ) arg4 fullShare d)
        ∗ (iprop(owns (c : Thread nD τ) arg1 fullShare xa ∗ owns (c : Thread nD τ) arg2 fullShare xb ∗ owns (c : Thread nD τ) arg3 fullShare w
            ∗ owns (c : Thread nD τ) arg4 fullShare (outBlk xa xb w)) -∗ K ⟨⟩))
      ⊢ wp frame (wpE (defs₀ (F := F)) Variants.none c none) E (cc0__router_block i arg1 harg1 arg2 harg2 arg3 harg3 arg4 harg4) K := by
  simp only [cc0__router_block_eq_skeleton]; unfold cc0__router_block_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

/-! ## The pipeline's data -/

/-- The data of the pipeline on core `c`: the arrays as the region finds them; after the body each input's buffer
    at its block and the output's at `outBlk` of the input blocks; the invariant the scoped rest and the generator
    register, untouched; nothing owed. The operand array is read through two windows: each holds half of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_rowsA (c : Dev nD) (t : Fin cfg0.N) : (dat V c).after 0 t = iblk V c 0 t := by dsimp only [dat]
theorem after_rowsB (c : Dev nD) (t : Fin cfg0.N) : (dat V c).after 1 t = iblk V c 1 t := by dsimp only [dat]
theorem after_weight (c : Dev nD) (t : Fin cfg0.N) : (dat V c).after 2 t = iblk V c 2 t := by dsimp only [dat]
theorem after_out (c : Dev nD) (t : Fin cfg0.N) :
    (dat V c).after 3 t = outBlk (iblk V c 0 t) (iblk V c 1 t) (iblk V c 2 t) := by dsimp only [dat]

theorem before0 (c : Dev nD) (t : Fin cfg0.N) (d) : (dat V c).before 0 t d = iblk V c 0 t :=
  before_rowsA V (dat V c) (A_eq V c 0) (after_rowsA V c) t d
theorem before1 (c : Dev nD) (t : Fin cfg0.N) (d) : (dat V c).before 1 t d = iblk V c 1 t :=
  before_rowsB V (dat V c) (A_eq V c 1) (after_rowsB V c) t d
theorem before2 (c : Dev nD) (t : Fin cfg0.N) (d) : (dat V c).before 2 t d = iblk V c 2 t :=
  before_weight V (dat V c) (A_eq V c 2) (after_weight V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after_rowsA, after_rowsB, after_weight, after_out]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Router

end
-- ==== Proof.RouterRunBits.lean ====
/-
  The run of the row-block product program: a reshape of the [4, 4096, 2048] operand to [16384, 2048] on the host,
  the pipelined kernel, and a reshape of its [16384, 64] result to [4, 4096, 64] on the host.

  The kernel reads the reshaped operand through TWO windows (its even and its odd 1024-row blocks), so the
  buffer's full share is dealt between them at the region's entry, half to each, and the halves — which hold the
  same contents still, for an input array is never written — are joined again at its exit. Every other array has
  one window and is held outright. The run ends with every buffer outside the kernel's staging at the contents the
  three segments leave, folded from the launch memory (`Wend`).
-/
import proofs.«137380_g64372969832743_cont_9to1_m_644_7_alg».proof.Proof.RouterBodyBits

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of the pipeline, one by one -/

section Arrays

variable (V : (c : Dev nD) → (b : Ref sig .tc) → Buf (Elt F) ((c : Thread nD τ).loc b))

/-- The three distinct buffers behind the four windows' arrays. -/
theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_call0_v0) ↦{fullShare} X main_call0_v0)
          ∗ (((c : Thread nD τ).loc main_arg1) ↦{fullShare} X main_arg1)
          ∗ (((c : Thread nD τ).loc main_call0_v1) ↦{fullShare} X main_call0_v1)) := by
  unfold Pipeline.arrBufs
  exact bigSep_eq_bigSepL_of_eq [main_call0_v0, main_arg1, main_call0_v1] (by decide) (by decide) _

/-- The pipeline's arrays window by window: the operand's buffer twice, at the two halves of the full share. -/
theorem arrays_chain (c : Dev nD) (A : (w : Fin cfg0.W) → Buf (Elt F) ((cfg0.win w).arr.view.loc (c : Thread nD τ))) :
    ((dat V c).arrays A : sProp 𝕄)
      = iprop((((c : Thread nD τ).loc main_call0_v0) ↦{fullShare.left} A 0)
          ∗ (((c : Thread nD τ).loc main_call0_v0) ↦{fullShare.right} A 1)
          ∗ (((c : Thread nD τ).loc main_arg1) ↦{fullShare} A 2)
          ∗ (((c : Thread nD τ).loc main_call0_v1) ↦{fullShare} A 3)) := by
  unfold Dat.arrays
  rw [bigSep_W0, (arr_whole0 0).set_eq_univ, (arr_whole0 2).set_eq_univ, (arr_whole0 3).set_eq_univ]
  rfl

/-- ENTRY: the core's unscoped buffers are the pipeline's arrays at the entry contents — the operand's buffer split
    in two halves — and the unscoped rest. -/
theorem entry_split (c : Dev nD) :
    (unscopedBufs (Ix := Unit) (Name := ℕ) (U := UR sig nD τ) (Lvl := ℕ) c (V c) : sProp 𝕄)
      ⊢ iprop((dat V c).arrays ((dat V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrBufs_chain, arrays_chain]
  iintro ⟨⟨Hx, Hw, Ho⟩, Hrest⟩
  ihave Hx' := (pointsTo_share (PosShare.mem_left_op_right fullShare)).1 $$ Hx
  icases Hx' with ⟨Hl, Hr⟩
  isplitr [Hrest]
  · isplitl [Hl]; · iexact Hl
    isplitl [Hr]; · iexact Hr
    isplitl [Hw]; · iexact Hw
    iexact Ho
  · iexact Hrest

/-- An input array ends as it was entered. -/
theorem arrAt_rowsA (c : Dev nD) : (dat V c).arrAt 0 cfg0.N = V c main_call0_v0 := ((dat V c).arrAt_in 0 rfl _).trans (A_eq V c 0)
theorem arrAt_rowsB (c : Dev nD) : (dat V c).arrAt 1 cfg0.N = V c main_call0_v0 := ((dat V c).arrAt_in 1 rfl _).trans (A_eq V c 1)
theorem arrAt_weight (c : Dev nD) : (dat V c).arrAt 2 cfg0.N = V c main_arg1 := ((dat V c).arrAt_in 2 rfl _).trans (A_eq V c 2)

/-- EXIT: the pipeline's arrays at what its write-backs leave — the operand's two halves, at the same contents
    still, joined — and the unscoped rest are the core's unscoped buffers at any contents `X` that have the result
    array at what the pipeline leaves and agree with the entry contents elsewhere. -/
theorem exit_join (c : Dev nD) (X : (b : Ref sig .tc) → Buf (Elt F) ((c : Thread nD τ).loc b))
    (hout : X main_call0_v1 = (dat V c).arrAt 3 cfg0.N) (hrest : ∀ b, b ≠ main_call0_v1 → X b = V c b) :
    iprop((dat V c).arrays ((dat V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c X : sProp 𝕄) := by
  have hR : (Pipeline.unscopedRest (Ix := Unit) (Name := ℕ) (U := UR sig nD τ) (Lvl := ℕ) spec0 c X : sProp 𝕄)
      = Pipeline.unscopedRest spec0 c (V c) := by
    unfold Pipeline.unscopedRest
    exact bigSep_congr fun b hb => by
      rw [hrest b (fun e => (Finset.mem_sdiff.mp hb).2 (Finset.mem_image.mpr ⟨3, Finset.mem_univ _, e.symm⟩))]
  rw [Pipeline.unscopedBufs_split₀ cfgs 0 winFacts₀0.arr_unscoped c X, arrBufs_chain, arrays_chain, hR,
    arrAt_rowsA, arrAt_rowsB, arrAt_weight, hout, hrest main_call0_v0 (by decide), hrest main_arg1 (by decide)]
  iintro ⟨⟨Hl, Hr, Hw, Ho⟩, Hrest⟩
  isplitr [Hrest]
  · isplitl [Hl Hr]
    · iapply (pointsTo_share (PosShare.mem_left_op_right fullShare)).2
      isplitl [Hl]; · iexact Hl
      iexact Hr
    isplitl [Hw]; · iexact Hw
    iexact Ho
  · iexact Hrest

end Arrays

/-! ## The buffer contents at each segment boundary: a fold through the program -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- After the operand's reshape (the region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the region's exit: the result array at what the write-backs leave, every other buffer as entered. -/
def W2 (c : Dev nD) : Valuation τ sig (Elt F) :=
  Function.update (W1 m c) main_call0_v1 ((dat (V1 m) c).arrAt 3 cfg0.N)
/-- The same read at the TensorCore's references. -/
abbrev V2 : (c : Dev nD) → (b : Ref sig .tc) → Buf (Elt F) ((c : Thread nD τ).loc b) := fun c b => W2 m c b
/-- After the result's reshape (the end). -/
abbrev Wend : Dev nD → Valuation τ sig (Elt F) := fun c => StableHlo.after hostOps1 (W2 m c)

theorem W2_out (c : Dev nD) : V2 m c main_call0_v1 = (dat (V1 m) c).arrAt 3 cfg0.N := by
  simp only [V2, W2, Function.update_self]
theorem W2_of_ne (c : Dev nD) (b : Ref sig .tc) (h : b ≠ main_call0_v1) : V2 m c b = V1 m c b := by
  simp only [V2, W2, Function.update_of_ne (StableHlo.devRef_ne_of_ne h : (Proc.devRef .tc b : DevRef τ sig) ≠ Proc.devRef .tc main_call0_v1)]

/-! ## The pipeline's data and the thread state -/

/-- No pipeline has a prefetched table. -/
abbrev adm : (p : Fin 1) → (pcfgs (F := F) p).Adm := fun p => (cfgs p).toPCfg_adm
/-- The one pipeline's data, at its region's entry contents. -/
def pdats : (p : Fin 1) → (c : Dev nD) → Dat τ (Elt F) Unit ℕ (UR sig nD τ) ℕ (Pipeline.pin (pcfgs (F := F)) adm p) c
  | ⟨0, _⟩ => fun c => dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tend (c : Dev nD) : sProp 𝕄 := iprop(StableHlo.held (c : Thread nD τ) (Pipeline.ucRefs τ sig) (Wend m c) ∗ ∃ r, prngReg c r)

/-! ## The region as a segment -/

set_option backward.isDefEq.respectTransparency.types false in
/-- The kernel's region over the thread state: entered from every unscoped buffer at `W1`, left at `W2`. Its
    arrays are split out of the unscoped buffers (`entry_split`: the shared operand in two halves) and put back
    at the exit contents (`exit_join`); the generator register goes into the region invariant and comes out;
    nothing is owed; the kernel has no semaphore of its own. -/
def reg : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0)
            ∗ Pipeline.unscopedRest (Ix := Unit) (Name := ℕ) (U := UR sig nD τ) (Lvl := ℕ) spec0 c (V1 m c)) := entry_split (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs (Ix := Unit) (Name := ℕ) (U := UR sig nD τ) (Lvl := ℕ) c (V2 m c) : sProp 𝕄) :=
      exit_join (V1 m) c (V2 m c) (W2_out m c) (fun b hb => W2_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m) () defs₀ 𝒱₀ L lv) :=
  [ .host (hseg hostOps0 hostOps0_sub hostOps0_fresh (W0 m)),
    .region (reg m),
    .host (hseg hostOps1 hostOps1_sub hostOps1_fresh (W2 m)) ]
/-- The program IS the run of the segments. -/
theorem main_run (c : Dev nD) : main (F := F) c = Pipeline.Seg.run (segs m) := (main_chain c).trans (by chain_rfl)

set_option backward.isDefEq.respectTransparency.types false in
/-- THE RUN, at any float values: from any memory with zero counters every weakly fair execution of the program
    terminates, nothing faulting, and every final state has each unscoped buffer at the contents the three segments
    leave (`Wend`). -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun c =>
      (show iprop(StableHlo.held (c : Thread nD τ) (Pipeline.ucRefs τ sig) (Wend m c) ∗ R c)
          ⊢ (iprop(Tend m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h c => h c)

/-! ## The arguments end as launched

Neither reshape writes an argument and the kernel's write-backs go to the result array alone, so the fold at an
argument's buffer walks back to the launch memory. -/

theorem Wend_arg0 (c : Dev nD) : Wend m c (Proc.devRef .tc main_arg0) = m ((c : Thread nD τ).loc main_arg0) :=
  calc Wend m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem Wend_arg1 (c : Dev nD) : Wend m c (Proc.devRef .tc main_arg1) = m ((c : Thread nD τ).loc main_arg1) :=
  calc Wend m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

/-- THE FRAME, at any float values: the program runs to the end, nothing faulting, and its argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (Wend_arg0 m c),
       (h c _ (mem_uc main_arg1 (by decide))).trans (Wend_arg1 m c)⟩)
    (run_main m ρ)

end Cert.Kernel.Router

end
-- ==== Proof.RouterReshape.lean ====
/-
  The two reshapes around the blocked product, read at an index.

  The activations [4, 4096, 2048] are viewed as the matrix [16384, 2048] whose row r is the activation row
  (r / 4096, r % 4096): both arrays list the same elements in row-major order, and 4096 · 2048 · b + 2048 · t + d
  = 2048 · (4096 · b + t) + d. The product [16384, 64] is viewed back as [4, 4096, 64] the same way: entry
  (b, t, e) is the matrix entry (4096 · b + t, e).
-/
import proofs.«137380_g64372969832743_cont_9to1_m_644_7_alg».proof.Proof.Gen.KernelIdeal.Skeleton
import Idealize.ShloMosaic.Lib.ValueIdx
import Idealize.ShloMosaic.Lib.Pipeline.Value

noncomputable section

namespace Cert.KernelIdeal.RouterValue

open Idealize.ShloMosaic Cert.KernelIdeal

variable {α : Type}

/-- Row r of the [16384, 2048] view of the activations is row r % 4096 of batch r / 4096. -/
theorem reshape_x_apply (x : S4x4096x2048.Idx → α) (hx : S4x4096x2048.ShapeCasts S16384x2048)
    (r : Fin 16384) (d : Fin 2048) :
    shapeCast S16384x2048 x hx (ValueIdx.ix2 r d)
      = x (ValueIdx.ix3 (⟨r.val / 4096, by omega⟩ : Fin 4) (⟨r.val % 4096, by omega⟩ : Fin 4096) d) :=
  shapeCast_apply x hx _ _ (by
    rw [Shape.rowMajor_val_three, Shape.rowMajor_val_two]
    show (r.val / 4096 * 4096 + r.val % 4096) * 2048 + d.val = r.val * 2048 + d.val
    rw [Nat.div_add_mod' r.val 4096])

/-- Entry (b, t, e) of the [4, 4096, 64] view of the product is entry (4096 · b + t, e) of the matrix. -/
theorem reshape_out_apply (o : S16384x64.Idx → α) (ho : S16384x64.ShapeCasts S4x4096x64) (i : S4x4096x64.Idx) :
    shapeCast S4x4096x64 o ho i
      = o (ValueIdx.ix2 (⟨4096 * (i 0).val + (i 1).val, by
              have h0 : (i 0).val < 4 := (i 0).isLt
              have h1 : (i 1).val < 4096 := (i 1).isLt
              omega⟩ : Fin 16384) (⟨(i 2).val, (i 2).isLt⟩ : Fin 64)) :=
  shapeCast_apply o ho _ _ (by
    rw [Shape.rowMajor_val_three, Shape.rowMajor_val_two]
    show (4096 * (i 0).val + (i 1).val) * 64 + (i 2).val = ((i 0).val * 4096 + (i 1).val) * 64 + (i 2).val
    rw [Nat.mul_comm 4096 (i 0).val])

end Cert.KernelIdeal.RouterValue

end
-- ==== Proof.RouterPayload.lean ====
/-
  The value of the two payloads of the block function, read at an index.

  Each payload is the product of a 1024×2048 block of the activations with the transposed 64×2048 weight,
  accumulated into zero: its entry (p, e) is the sum over the 2048 contracted positions k of
  block (p, k) · weight (e, k). Stated at the ideal values, where a matrix product is that exact sum.
-/
import proofs.«137380_g64372969832743_cont_9to1_m_644_7_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.RouterValue

open Idealize.ShloMosaic Cert.KernelIdeal Cert.KernelIdeal.Gen

/-- The contraction of the block with the weight: axis 1 of each operand is summed, axis 0 of each is kept. -/
abbrev D : DotDims S1024x2048 S64x2048 S1024x64 := dot_S1024x2048_S64x2048_S1024x64_1_1_0_0_n_n

/-- The left operand's row is the output's row. -/
theorem lhs_row (j : S1024x64.Idx) (q : D.contr.Idx) : (D.lhsIdx j q 0).val = (j 0).val := by
  unfold DotDims.lhsIdx
  rw [dif_neg (show ¬(0 : Fin S1024x2048.rank) ∈ D.lhsBatch by decide), dif_pos (show (0 : Fin S1024x2048.rank) ∈ D.lhsNonContracting by decide)]
  rfl

/-- The left operand's column is the contracted position. -/
theorem lhs_col (j : S1024x64.Idx) (q : D.contr.Idx) : (D.lhsIdx j q 1).val = (q ⟨0, by decide⟩).val :=
  D.lhsIdx_val_of_single rfl j q

/-- The right operand's row is the output's column. -/
theorem rhs_row (j : S1024x64.Idx) (q : D.contr.Idx) : (D.rhsIdx j q 0).val = (j 1).val := by
  unfold DotDims.rhsIdx
  rw [dif_neg (show ¬(0 : Fin S64x2048.rank) ∈ D.rhsBatch by decide), dif_pos (show (0 : Fin S64x2048.rank) ∈ D.rhsNonContracting by decide)]
  rfl

/-- The right operand's column is the contracted position. -/
theorem rhs_col (j : S1024x64.Idx) (q : D.contr.Idx) : (D.rhsIdx j q 1).val = (q ⟨0, by decide⟩).val :=
  D.rhsIdx_val_of_single rfl j q

/-- The product of a 1024×2048 block with the transposed 64×2048 weight, into a zero accumulator, read at an
    output index: the sum over the 2048 contracted positions of the block's row entry times the weight's row entry. -/
theorem matmul_zero_apply (a : FVec Ideal S1024x2048 .f32) (w : FVec Ideal S64x2048 .f32) (j : S1024x64.Idx) :
    matmul (F := Ideal) D none a w (constant S1024x64 .f32 0x00000000#32) j
      = ∑ k : Fin 2048, a (ValueIdx.ix2 (j 0) k) * w (ValueIdx.ix2 (j 1) k) := by
  simp only [matmul]
  rw [Ideal.matmul_constant_zero_apply, ← Equiv.sum_comp (ValueIdx.contrEquiv1 D 2048 rfl rfl).symm]
  refine Finset.sum_congr rfl fun k _ => ?_
  have hk := ValueIdx.contrEquiv1_symm_val D 2048 rfl rfl k
  have el : D.lhsIdx j ((ValueIdx.contrEquiv1 D 2048 rfl rfl).symm k) = ValueIdx.ix2 (j 0) k := funext fun c => Fin.ext (by
    match c with
    | ⟨0, _⟩ => exact lhs_row _ _
    | ⟨1, _⟩ => exact (lhs_col _ _).trans hk)
  have er : D.rhsIdx j ((ValueIdx.contrEquiv1 D 2048 rfl rfl).symm k) = ValueIdx.ix2 (j 1) k := funext fun c => Fin.ext (by
    match c with
    | ⟨0, _⟩ => exact rhs_row _ _
    | ⟨1, _⟩ => exact (rhs_col _ _).trans hk)
  exact congrArg₂ (· * ·) (congrArg a el) (congrArg w er)

/-- The first payload at a general output index. -/
theorem pay1_apply_idx (x0 : Vec Ideal S1024x2048 .f32) (w : Vec Ideal S64x2048 .f32) (j : S1024x64.Idx) :
    k0_pay1 (F := Ideal) x0 w j = ∑ k : Fin 2048, x0 (ValueIdx.ix2 (j 0) k) * w (ValueIdx.ix2 (j 1) k) := by
  unfold k0_pay1
  rw [shapeCast_self]
  exact matmul_zero_apply x0 w j

/-- The second payload at a general output index: the same product. -/
theorem pay2_apply_idx (x0 : Vec Ideal S1024x2048 .f32) (w : Vec Ideal S64x2048 .f32) (j : S1024x64.Idx) :
    k0_pay2 (F := Ideal) x0 w j = ∑ k : Fin 2048, x0 (ValueIdx.ix2 (j 0) k) * w (ValueIdx.ix2 (j 1) k) := by
  unfold k0_pay2
  rw [shapeCast_self]
  exact matmul_zero_apply x0 w j

/-- Entry (p, e) of the first payload: the sum over the 2048 contracted positions k of block (p, k) · weight (e, k). -/
theorem pay1_apply (x0 : Vec Ideal S1024x2048 .f32) (w : Vec Ideal S64x2048 .f32) (p : Fin 1024) (e : Fin 64) :
    k0_pay1 (F := Ideal) x0 w (ValueIdx.ix2 p e) = ∑ k : Fin 2048, x0 (ValueIdx.ix2 p k) * w (ValueIdx.ix2 e k) :=
  pay1_apply_idx x0 w (ValueIdx.ix2 p e)

/-- Entry (p, e) of the second payload: the same sum. -/
theorem pay2_apply (x0 : Vec Ideal S1024x2048 .f32) (w : Vec Ideal S64x2048 .f32) (p : Fin 1024) (e : Fin 64) :
    k0_pay2 (F := Ideal) x0 w (ValueIdx.ix2 p e) = ∑ k : Fin 2048, x0 (ValueIdx.ix2 p k) * w (ValueIdx.ix2 e k) :=
  pay2_apply_idx x0 w (ValueIdx.ix2 p e)

end Cert.KernelIdeal.RouterValue

end
-- ==== Proof.RouterArray.lean ====
/-
  From the blocks to the array: what the output array holds after the eight grid points.

  At grid point t the kernel reads rows 2048·t .. 2048·t + 1023 and rows 2048·t + 1024 .. 2048·t + 2047 of the
  [16384, 2048] matrix (block rows 2t and 2t + 1) and the whole [64, 2048] weight, and writes back rows
  2048·t .. 2048·t + 2047 of the [16384, 64] output. Entry (q, e) of the block it writes back is, for q < 1024, the
  first row block's row q against the weight's row e, and for q ≥ 1024 the second row block's row q − 1024 against it:
  in both cases the sum over the 2048 contracted positions k of matrix (2048·t + q, k) · weight (e, k), that is block t
  of ONE function of the two arrays. The eight blocks tile the 16384 rows (row r is in block r / 2048), so the array
  ends holding that function: the product of the matrix with the transposed weight.
-/
import proofs.«137380_g64372969832743_cont_9to1_m_644_7_alg».proof.Proof.RouterBody
import proofs.«137380_g64372969832743_cont_9to1_m_644_7_alg».proof.Proof.RouterPayload
import Idealize.ShloMosaic.Lib.Pipeline.Value
import Idealize.ShloMosaic.Lib.ValueIdx

noncomputable section

namespace Cert.KernelIdeal.RouterValue

open Cert.KernelIdeal Cert.KernelIdeal.Gen
open Idealize.ShloMosaic Idealize.ShloMosaic.TcCoe Idealize.SL.Sem
open Idealize.ShloMosaic.Pipeline (Dat)
open Idealize.ShloMosaic.ValueIdx (ix2)

/-! ## The array the kernel computes -/

/-- The product of the [16384, 2048] matrix with the transposed [64, 2048] weight: entry (r, e) is the sum over the
    2048 contracted positions k of matrix (r, k) · weight (e, k). -/
def G (X : S16384x2048.Idx → EReal) (Wt : S64x2048.Idx → EReal) : S16384x64.Idx → EReal :=
  fun j => ∑ k : Fin 2048, X (ix2 (j 0) k) * Wt (ix2 (j 1) k)

theorem G_apply (X : S16384x2048.Idx → EReal) (Wt : S64x2048.Idx → EReal) (r : Fin 16384) (e : Fin 64) :
    G X Wt (ix2 r e) = ∑ k : Fin 2048, X (ix2 r k) * Wt (ix2 e k) := rfl

/-! ## The output block, entry by entry -/

theorem hz : (![0, 0] : Fin 2 → Nat) = fun _ => 0 := funext fun a => by fin_cases a <;> rfl

/-- Rows 0..1023 of the output block are the first row block times the transposed weight: they lie outside the
    later store's rows 1024..2047, and the earlier store put the first product there. -/
theorem outBlk_top (xa xb : Vec Ideal S1024x2048 .f32) (w : Vec Ideal S64x2048 .f32) (p : Fin 1024) (e : Fin 64)
    (q : Fin 2048) (hq : q.val = p.val) :
    Router.outBlk (F := Ideal) xa xb w (ix2 q e) = ∑ k : Fin 2048, xa (ix2 p k) * w (ix2 e k) := by
  unfold Router.outBlk
  rw [View.ld_unit_zero (S := S1024x2048) hz, View.ld_unit_zero (S := S1024x2048) hz, View.ld_unit_zero (S := S64x2048) hz]
  have hnot : (ix2 q e : S2048x64.Idx) ∉ Router.rBot.set := by
    rw [Rect.mem_set_unit]
    intro h
    have h0 : 1024 ≤ q.val := (h 0).1
    have hp : p.val < 1024 := p.isLt
    omega
  refine (View.canon_cons_of_not_mem (Val := Elt Ideal) (⟨Router.rBot, k0_pay2 (F := Ideal) xb w⟩ : View.Piece (Elt Ideal) S2048x64 .f32) [(⟨Router.rTop, k0_pay1 (F := Ideal) xa w⟩ : View.Piece (Elt Ideal) S2048x64 .f32)] hnot).trans ?_
  have hemb : (ix2 q e : S2048x64.Idx) = Router.rTop.emb (ix2 p e : S1024x64.Idx) := funext fun a => Fin.ext (by
    match a with
    | ⟨0, _⟩ => show q.val = 0 + 1 * p.val; omega
    | ⟨1, _⟩ => show e.val = 0 + 1 * e.val; omega)
  refine (congrArg (View.canon (Val := Elt Ideal) [(⟨Router.rTop, k0_pay1 (F := Ideal) xa w⟩ : View.Piece (Elt Ideal) S2048x64 .f32)]) hemb).trans ?_
  refine (View.canon_cons_emb (Val := Elt Ideal) (e := .f32) Router.rTop (k0_pay1 (F := Ideal) xa w : Router.rTop.shape.Idx → Elt Ideal .f32) [] (ix2 p e : S1024x64.Idx)).trans ?_
  exact pay1_apply xa w p e

/-- Rows 1024..2047 of the output block are the second row block times the transposed weight: the later store
    put the second product there. -/
theorem outBlk_bot (xa xb : Vec Ideal S1024x2048 .f32) (w : Vec Ideal S64x2048 .f32) (p : Fin 1024) (e : Fin 64)
    (q : Fin 2048) (hq : q.val = 1024 + p.val) :
    Router.outBlk (F := Ideal) xa xb w (ix2 q e) = ∑ k : Fin 2048, xb (ix2 p k) * w (ix2 e k) := by
  unfold Router.outBlk
  rw [View.ld_unit_zero (S := S1024x2048) hz, View.ld_unit_zero (S := S1024x2048) hz, View.ld_unit_zero (S := S64x2048) hz]
  have hemb : (ix2 q e : S2048x64.Idx) = Router.rBot.emb (ix2 p e : S1024x64.Idx) := funext fun a => Fin.ext (by
    match a with
    | ⟨0, _⟩ => show q.val = 1024 + 1 * p.val; omega
    | ⟨1, _⟩ => show e.val = 0 + 1 * e.val; omega)
  refine (congrArg (View.canon (Val := Elt Ideal) [(⟨Router.rBot, k0_pay2 (F := Ideal) xb w⟩ : View.Piece (Elt Ideal) S2048x64 .f32), (⟨Router.rTop, k0_pay1 (F := Ideal) xa w⟩ : View.Piece (Elt Ideal) S2048x64 .f32)]) hemb).trans ?_
  refine (View.canon_cons_emb (Val := Elt Ideal) (e := .f32) Router.rBot (k0_pay2 (F := Ideal) xb w : Router.rBot.shape.Idx → Elt Ideal .f32) [(⟨Router.rTop, k0_pay1 (F := Ideal) xa w⟩ : View.Piece (Elt Ideal) S2048x64 .f32)] (ix2 p e : S1024x64.Idx)).trans ?_
  exact pay2_apply xb w p e

/-- An entry of the output block, in either half, against the matrix the two row blocks are cut from: when the
    first row block is rows 2048·n .. 2048·n + 1023 of the matrix, the second the next 1024 rows, and the weight
    block the whole weight, entry (q, e) of the output block is entry (2048·n + q, e) of the product. -/
theorem outBlk_apply (X : S16384x2048.Idx → EReal) (Wt : S64x2048.Idx → EReal)
    (xa xb : Vec Ideal S1024x2048 .f32) (w : Vec Ideal S64x2048 .f32) (n : Nat)
    (hxa : ∀ (p : Fin 1024) (k : Fin 2048) (r : Fin 16384), r.val = 2048 * n + p.val → xa (ix2 p k) = X (ix2 r k))
    (hxb : ∀ (p : Fin 1024) (k : Fin 2048) (r : Fin 16384), r.val = 2048 * n + 1024 + p.val → xb (ix2 p k) = X (ix2 r k))
    (hw : ∀ (e : Fin 64) (k : Fin 2048), w (ix2 e k) = Wt (ix2 e k))
    (q : Fin 2048) (e : Fin 64) (r : Fin 16384) (hr : r.val = 2048 * n + q.val) :
    Router.outBlk (F := Ideal) xa xb w (ix2 q e) = G X Wt (ix2 r e) := by
  rw [G_apply]
  by_cases h : q.val < 1024
  · rw [outBlk_top xa xb w ⟨q.val, h⟩ e q rfl]
    refine Finset.sum_congr rfl fun k _ => ?_
    rw [hxa ⟨q.val, h⟩ k r hr, hw e k]
  · have hq : q.val < 2048 := q.isLt
    rw [outBlk_bot xa xb w ⟨q.val - 1024, by omega⟩ e q (by show q.val = 1024 + (q.val - 1024); omega)]
    refine Finset.sum_congr rfl fun k _ => ?_
    rw [hxb ⟨q.val - 1024, by omega⟩ k r (by show r.val = 2048 * n + 1024 + (q.val - 1024); omega), hw e k]

/-! ## The index maps over the grid -/

/-- The printed index maps, decided over the 8 grid points: at point t the two row windows are at block rows 2t and
    2t + 1 of the matrix, the weight window at the whole weight, the output window at block row t. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read off the arrays -/

variable (V : (c : Dev nD) → (b : Ref sig .tc) → Buf (Elt Ideal) ((c : Thread nD τ).loc b))

/-- The first row window's block at point t is rows 2048·t .. 2048·t + 1023 of the matrix. -/
theorem rowsA_apply (c : Dev nD) (t : Fin cfg0.N) (p : Fin 1024) (k : Fin 2048) (r : Fin 16384)
    (hr : r.val = 2048 * t.val + p.val) :
    (Router.iblk (F := Ideal) V c 0 t : Vec Ideal S1024x2048 .f32) (ix2 p k)
      = (V c main_call0_v0 : S16384x2048.Idx → EReal) (ix2 r k) := by
  obtain ⟨e0, e1, -⟩ := idx_facts t
  unfold Router.iblk
  rw [View.read_apply]
  show (V c main_call0_v0 : S16384x2048.Idx → EReal) _ = (V c main_call0_v0 : S16384x2048.Idx → EReal) _
  refine congrArg (V c main_call0_v0 : S16384x2048.Idx → EReal) ?_
  funext a; apply Fin.ext
  match a with
  | ⟨0, _⟩ => show win0_0.index t (0 : Fin 2) * 1024 + 1 * p.val = r.val; rw [e0, hr]; omega
  | ⟨1, _⟩ => show win0_0.index t (1 : Fin 2) * 2048 + 1 * k.val = k.val; rw [e1]; omega

/-- The second row window's block at point t is rows 2048·t + 1024 .. 2048·t + 2047 of the matrix. -/
theorem rowsB_apply (c : Dev nD) (t : Fin cfg0.N) (p : Fin 1024) (k : Fin 2048) (r : Fin 16384)
    (hr : r.val = 2048 * t.val + 1024 + p.val) :
    (Router.iblk (F := Ideal) V c 1 t : Vec Ideal S1024x2048 .f32) (ix2 p k)
      = (V c main_call0_v0 : S16384x2048.Idx → EReal) (ix2 r k) := by
  obtain ⟨-, -, e0, e1, -⟩ := idx_facts t
  unfold Router.iblk
  rw [View.read_apply]
  show (V c main_call0_v0 : S16384x2048.Idx → EReal) _ = (V c main_call0_v0 : S16384x2048.Idx → EReal) _
  refine congrArg (V c main_call0_v0 : S16384x2048.Idx → EReal) ?_
  funext a; apply Fin.ext
  match a with
  | ⟨0, _⟩ => show win0_1.index t (0 : Fin 2) * 1024 + 1 * p.val = r.val; rw [e0, hr]; omega
  | ⟨1, _⟩ => show win0_1.index t (1 : Fin 2) * 2048 + 1 * k.val = k.val; rw [e1]; omega

/-- The weight window's block at every point is the whole weight. -/
theorem weight_apply (c : Dev nD) (t : Fin cfg0.N) (e : Fin 64) (k : Fin 2048) :
    (Router.iblk (F := Ideal) V c 2 t : Vec Ideal S64x2048 .f32) (ix2 e k)
      = (V c main_arg1 : S64x2048.Idx → EReal) (ix2 e k) := by
  obtain ⟨-, -, -, -, e0, e1, -⟩ := idx_facts t
  unfold Router.iblk
  rw [View.read_apply]
  show (V c main_arg1 : S64x2048.Idx → EReal) _ = (V c main_arg1 : S64x2048.Idx → EReal) _
  refine congrArg (V c main_arg1 : S64x2048.Idx → EReal) ?_
  funext a; apply Fin.ext
  match a with
  | ⟨0, _⟩ => show win0_2.index t (0 : Fin 2) * 64 + 1 * e.val = e.val; rw [e0]; omega
  | ⟨1, _⟩ => show win0_2.index t (1 : Fin 2) * 2048 + 1 * k.val = k.val; rw [e1]; omega

/-! ## What each point writes back, and the array after the run -/

/-- What point t writes back is block t of the product of the matrix and the weight as the region finds them:
    output row 2048·t + q is in the first row block when q < 1024 and in the second otherwise. -/
theorem flushed_eq (c : Dev nD) (t : Fin cfg0.N) :
    (Router.dat (F := Ideal) V c).flushed 3 t
      = ((cfg0.win 3).blk t).view.read (Elt Ideal)
          (G (V c main_call0_v0 : S16384x2048.Idx → EReal) (V c main_arg1 : S64x2048.Idx → EReal)) := by
  show (cfg0.win 3).cut (grid0.coords t) ((Router.dat (F := Ideal) V c).after 3 t) = _
  rw [Router.after_out]
  obtain ⟨-, -, -, -, -, -, e0, e1⟩ := idx_facts t
  funext y
  rw [View.read_apply]
  have hy0 : (y 0).val < 2048 := (y 0).isLt
  have hy1 : (y 1).val < 64 := (y 1).isLt
  have ht : t.val < 8 := Nat.lt_of_lt_of_eq t.isLt (N_0 : cfg0.N = 8)
  have hsrc : (cfg0.win 3).xinj (grid0.coords t) y = (ix2 (⟨(y 0).val, hy0⟩ : Fin 2048) (⟨(y 1).val, hy1⟩ : Fin 64) : S2048x64.Idx) :=
    funext fun a => Fin.ext (by
      match a with
      | ⟨0, _⟩ => rfl
      | ⟨1, _⟩ => rfl)
  have hdst : ((cfg0.win 3).blk t).view.emb y
      = (ix2 (⟨2048 * t.val + (y 0).val, by omega⟩ : Fin 16384) (⟨(y 1).val, hy1⟩ : Fin 64) : S16384x64.Idx) :=
    funext fun a => Fin.ext (by
      match a with
      | ⟨0, _⟩ => show win0_3.index t (0 : Fin 2) * 2048 + 1 * (y 0).val = 2048 * t.val + (y 0).val; rw [e0]; omega
      | ⟨1, _⟩ => show win0_3.index t (1 : Fin 2) * 64 + 1 * (y 1).val = (y 1).val; rw [e1]; omega)
  show Router.outBlk (F := Ideal) (Router.iblk V c 0 t) (Router.iblk V c 1 t) (Router.iblk V c 2 t) ((cfg0.win 3).xinj (grid0.coords t) y)
      = G (V c main_call0_v0 : S16384x2048.Idx → EReal) (V c main_arg1 : S64x2048.Idx → EReal) (((cfg0.win 3).blk t).view.emb y)
  rw [hsrc, hdst]
  exact outBlk_apply (V c main_call0_v0 : S16384x2048.Idx → EReal) (V c main_arg1 : S64x2048.Idx → EReal)
    (Router.iblk (F := Ideal) V c 0 t) (Router.iblk (F := Ideal) V c 1 t) (Router.iblk (F := Ideal) V c 2 t) t.val
    (fun p k r hr => rowsA_apply V c t p k r hr) (fun p k r hr => rowsB_apply V c t p k r hr) (fun e k => weight_apply V c t e k)
    ⟨(y 0).val, hy0⟩ ⟨(y 1).val, hy1⟩ ⟨2048 * t.val + (y 0).val, by omega⟩ rfl

/-- An index of the output array is in point t's block iff each coordinate is in the block's range on its axis. -/
theorem mem_blk (t : Fin cfg0.N) (i : S16384x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_call0_v1).slice (win0_3.rect t)).set ↔ _
  rw [View.set_slice_whole, Rect.mem_set_unit]
  exact Iff.rfl

/-- Every row r of the output array is written back by point r / 2048. -/
theorem cover (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  let t : Fin cfg0.N := ⟨(i 0).val / 2048, by rw [show cfg0.N = 8 from N_0]; omega⟩
  obtain ⟨-, -, -, -, -, -, e0, e1⟩ := idx_facts t
  have htv : t.val = (i 0).val / 2048 := rfl
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; rw [e0, htv]; omega
  | ⟨1, _⟩ => show win0_3.index t (1 : Fin 2) * 64 ≤ (i 1).val ∧ (i 1).val < win0_3.index t (1 : Fin 2) * 64 + 64; rw [e1]; omega

/-- THE OUTPUT ARRAY after the run: the product of the matrix with the transposed weight, both as the region finds
    them — every entry is the sum over the 2048 contracted positions. -/
theorem out_array (c : Dev nD) :
    (Router.dat (F := Ideal) V c).arrAt 3 cfg0.N
      = G (V c main_call0_v0 : S16384x2048.Idx → EReal) (V c main_arg1 : S64x2048.Idx → EReal) :=
  (Router.dat (F := Ideal) V c).arrAt_eq_of_cover 3
    (G (V c main_call0_v0 : S16384x2048.Idx → EReal) (V c main_arg1 : S64x2048.Idx → EReal))
    (fun t _ => flushed_eq V c t) cover

end Cert.KernelIdeal.RouterValue

end
-- ==== Proof.RouterBridge.lean ====
/-
  The two programs compute one function, and the five claims.

  The reference is one contraction: entry (b, t, e) of its result is the sum over the 2048 positions k of
  x[b, t, k] · W[e, k]. The kernel's program reshapes x row-major to [16384, 2048] — row 4096·b + t of the reshaped
  array is row (b, t) of x —, lets the pipelined kernel fill the [16384, 64] array of row-by-weight sums (each
  2048-row block from two 1024-row products into a zero accumulator), and reshapes that row-major to
  [4, 4096, 64] — entry (b, t, e) of the result is entry (4096·b + t, e) of the array. At the ideal instance both
  are the same finite sum of the same products in the same order, so no property of the extended reals beyond
  0 + s = s is used, and the finiteness of the inputs is never opened.
-/
import proofs.«137380_g64372969832743_cont_9to1_m_644_7_alg».proof.Defs
import proofs.«137380_g64372969832743_cont_9to1_m_644_7_alg».proof.Proof.Gen.Pre_finite_inputs
import proofs.«137380_g64372969832743_cont_9to1_m_644_7_alg».proof.Proof.RouterRun
import proofs.«137380_g64372969832743_cont_9to1_m_644_7_alg».proof.Proof.RouterRunBits
import proofs.«137380_g64372969832743_cont_9to1_m_644_7_alg».proof.Proof.RouterReshape
import proofs.«137380_g64372969832743_cont_9to1_m_644_7_alg».proof.Proof.RouterArray
import proofs.«137380_g64372969832743_cont_9to1_m_644_7_alg».proof.Proof.Gen.ReferenceIdeal.Read

set_option maxRecDepth 16384

noncomputable section

namespace Cert.KernelIdeal.RouterValue

open Cert.KernelIdeal Cert.KernelIdeal.Gen Cert.KernelIdeal.Router
open Idealize.ShloMosaic Idealize.ShloMosaic.TcCoe Idealize.SL.Sem
open Idealize.ShloMosaic.Pipeline (Dat)

variable (m : (ℓ : Loc nD τ sig) → Buf (Elt Ideal) ℓ)

/-- The region finds the operand's buffer at the row-major reshape of the first argument, -/
theorem V1_rows (c : Dev nD) :
    (V1 m c main_call0_v0 : S16384x2048.Idx → EReal)
      = shapeCast S16384x2048 (m ((c : Thread nD τ).loc main_arg0)) shapeCasts_S4x4096x2048_S16384x2048 := by
  dsimp only [V1, W1, W0, hostOps0]; after_results; rfl

/-- and the weight's as launched. -/
theorem V1_weight (c : Dev nD) : (V1 m c main_arg1 : S64x2048.Idx → EReal) = m ((c : Thread nD τ).loc main_arg1) := by
  dsimp only [V1, W1, W0, hostOps0]; after_results

/-- The program's result is the row-major reshape of what the write-backs leave in the result array. -/
theorem Wend_out (c : Dev nD) :
    (Wend m c (Proc.devRef .tc main_v0) : S4x4096x64.Idx → EReal)
      = shapeCast S4x4096x64 ((dat (V1 m) c).arrAt 3 cfg0.N) shapeCasts_S16384x64_S4x4096x64 := by
  dsimp only [Wend, hostOps1]; after_results
  refine Eq.trans (b := shapeCast S4x4096x64 (V2 m c main_call0_v1) shapeCasts_S16384x64_S4x4096x64) rfl ?_
  rw [W2_out]

/-- The kernel's result and the reference's are one function of the arguments: entry (b, t, e) of either is the
    sum over the 2048 contracted positions of x[b, t, k] · W[e, k] — row 4096·b + t of the reshaped operand is
    row (b, t) of the operand, and row 4096·b + t of the result array is entry (b, t) of the reshaped result. -/
theorem result_eq (c : Dev nD) :
    (Wend m c (Proc.devRef .tc main_v0) : S4x4096x64.Idx → EReal)
      = Cert.ReferenceIdeal.Read.val_main_v0 (F := Ideal) (m ((c : Thread nD τ).loc main_arg0)) (m ((c : Thread nD τ).loc main_arg1)) := by
  funext i
  rw [Wend_out, Cert.ReferenceIdeal.Read.val_main_v0_apply, reshape_out_apply, out_array]
  unfold G
  show (_ : EReal) = _
  refine Finset.sum_congr rfl fun k _ => ?_
  rw [V1_rows, V1_weight, reshape_x_apply]
  have h1 : (i 1).val < 4096 := (i 1).isLt
  refine congrArg₂ (· * ·) (congrArg _ (funext fun a => Fin.ext ?_)) (congrArg _ (funext fun a => Fin.ext ?_))
  · match a with
    | ⟨0, _⟩ => show (4096 * (i 0).val + (i 1).val) / 4096 = (i 0).val; omega
    | ⟨1, _⟩ => show (4096 * (i 0).val + (i 1).val) % 4096 = (i 1).val; omega
    | ⟨2, _⟩ => rfl
  · match a with
    | ⟨0, _⟩ => rfl
    | ⟨1, _⟩ => rfl

end Cert.KernelIdeal.RouterValue

/-! ## The claims -/

namespace Cert.Proof.RouterClaims

open Idealize.ShloMosaic Idealize.ShloMosaic.TcCoe Idealize.SL.Sem
open Cert.KernelIdeal.Router Cert.KernelIdeal.RouterValue

/-- The printed kernel runs to the end and leaves its arguments as launched. -/
theorem frame_k : Cert.frame_Kernel := fun m ρ _ => Cert.Kernel.Router.frame m ρ
/-- So does its idealization: the same run, read at the extended reals. -/
theorem frame_ki : Cert.frame_KernelIdeal := fun m ρ _ => Cert.KernelIdeal.Router.frame m ρ
/-- The reference is one host operation; its run leaves the arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to preserve. -/
theorem preserves : Cert.preserves_Kernel_KernelIdeal := trivial

/-- From memories agreeing on the arguments both programs run, and end with the same result: the kernel's program
    at the contents its three segments leave in the result buffer, the reference at its one contraction, which are
    one function of the arguments (`result_eq`). -/
theorem algebraic : Cert.algebraic_KernelIdeal_ReferenceIdeal := by
  intro m ρ m' ρ' _ hagree
  refine ⟨fun c => Wend m c (Proc.devRef .tc Cert.KernelIdeal.main_v0), ?_, ?_⟩
  · exact (θ_run Cert.KernelIdeal.defs _ _).mono (fun r h c =>
      ⟨h c _ (mem_uc Cert.KernelIdeal.main_v0 (by decide)),
       (h c _ (mem_uc Cert.KernelIdeal.main_arg0 (by decide))).trans (Wend_arg0 m c),
       (h c _ (mem_uc Cert.KernelIdeal.main_arg1 (by decide))).trans (Wend_arg1 m c)⟩)
      (run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (result_eq m c).symm

end Cert.Proof.RouterClaims

end
-- ==== Proof.lean ====
/- The proof of `Cert.Claim`: a row-block matrix product on the matrix unit against one contraction.

   The kernel computes out[r, e] = Σ_k x2[r, k] · W[e, k] for the [16384, 2048] reshape x2 of x, 2048 rows per grid
   point, reading x2 through two windows (its even and odd 1024-row blocks) and the weight through a third; the
   reference computes out[b, t, e] = Σ_k x[b, t, k] · W[e, k] in one contraction. The modules:
   Proof/RouterBody.lean (what the body leaves in an output block, its triple, the pipeline's data with the
   shared operand held at two half shares, the body obligation), Proof/RouterRun.lean (the shared operand split at
   the region's entry and joined at its exit; the run of reshape, region, reshape; the frame), their copies at the
   word-level instance (Proof/RouterBodyBits.lean, Proof/RouterRunBits.lean), Proof/RouterPayload.lean (a product
   into a zero accumulator read at an index), Proof/RouterReshape.lean (the two reshapes read at an index),
   Proof/RouterArray.lean (the result array after all eight points, index by index), Proof/RouterBridge.lean (the two
   results are one function; the five claims). -/
import proofs.«137380_g64372969832743_cont_9to1_m_644_7_alg».proof.Defs
import proofs.«137380_g64372969832743_cont_9to1_m_644_7_alg».proof.Proof.RouterBridge
import proofs.«137380_g64372969832743_cont_9to1_m_644_7_alg».proof.Proof.Gen.Kernel
import proofs.«137380_g64372969832743_cont_9to1_m_644_7_alg».proof.Proof.Gen.KernelIdeal
import proofs.«137380_g64372969832743_cont_9to1_m_644_7_alg».proof.Proof.Gen.ReferenceIdeal
import proofs.«137380_g64372969832743_cont_9to1_m_644_7_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    RouterClaims.frame_k, RouterClaims.frame_ki, RouterClaims.frame_ri, RouterClaims.preserves, RouterClaims.algebraic⟩

end Cert.Proof

end
